-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x512 : Shape := ⟨2, ![512, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S8x2048x512 .f32) (main_arg1 : FVec F S8x2048x512 .f32) (main_arg2 : FVec F S512x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S8x2048x512 : Shape := ⟨3, ![8, 2048, 512]⟩
abbrev S512x512 : Shape := ⟨2, ![512, 512]⟩
abbrev S1x128x512 : Shape := ⟨3, ![1, 128, 512]⟩
abbrev S1x2048x512 : Shape := ⟨3, ![1, 2048, 512]⟩
abbrev S2048x512 : Shape := ⟨2, ![2048, 512]⟩
abbrev S128x512 : Shape := ⟨2, ![128, 512]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S512x512, .f32⟩
  | .hbm, ⟨3, _⟩ => ⟨S8x2048x512, .f32⟩
  | .local _ .vmem, ⟨0, _⟩ => ⟨S1x128x512, .f32⟩
  | .local _ .vmem, ⟨1, _⟩ => ⟨S1x128x512, .f32⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S1x2048x512, .f32⟩
  | .local _ .vmem, ⟨6, _⟩ => ⟨S1x2048x512, .f32⟩
  | .local _ .vmem, ⟨7, _⟩ => ⟨S2048x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c128_i32 : BitVec 32 := 128#32
  let v26 : BitVec 32 := Scalar.muli arg1 c128_i32
  v26
def k0_off1 (i : grid0.Coords) : Fin 3 → Nat :=
  let c0_12 : Index := 0#32
  let arg1 : BitVec 32 := BitVec.ofNat 32 (i 1).val
  let c128_i32 : BitVec 32 := 128#32
  let v26 : BitVec 32 := Scalar.muli arg1 c128_i32
  let v27 : BitVec 32 := v26
  let v28 : Index := Scalar.indexCast v27
  let c0_13 : Index := 0#32
  ![0, v28.toNat, 0]
def k0_cond2 (i : grid0.Coords) : BitVec 1 :=
  let arg1 : BitVec 32 := BitVec.ofNat 32 (i 1).val
  let c15_i32 : BitVec 32 := 15#32
  let v38 : BitVec 1 := Scalar.cmpi .eq arg1 c15_i32
  let v39 : BitVec 32 := Scalar.extui v38
  let c0_i32_19 : BitVec 32 := 0#32
  let v40 : BitVec 1 := Scalar.cmpi .ne v39 c0_i32_19
  v40

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S128x2048_S128 : S128x2048.Reduces [1] S128
  shapeCasts_S128_S128x1 : S128.ShapeCasts S128x1
  broadcasts_S128x1_S128x2048 : S128x1.Broadcasts S128x2048
  shapeCasts_S2048x512_S1x2048x512 : S2048x512.ShapeCasts S1x2048x512
  dot_S128x512_S512x512_S128x512_1_0_0_1_n_n_wf : DotDims.WF S128x512 S512x512 S128x512 [1] [0] [0] [1] [] []
  dot_S128x512_S2048x512_S128x2048_1_1_0_0_n_n_wf : DotDims.WF S128x512 S2048x512 S128x2048 [1] [1] [0] [0] [] []
  dot_S128x2048_S128x512_S2048x512_0_0_1_1_n_n_wf : DotDims.WF S128x2048 S128x512 S2048x512 [0] [0] [1] [1] [] []
  hrank0 : 0 < grid0.rank
  k0_mult1_dvd : ∀ i : grid0.Coords, 128 ∣ (k0_mult1 i).toNat
  k0_off1_inb : ∀ i : grid0.Coords, ∀ a, (k0_off1 i) a + S1x128x512.size a ≤ S1x2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S8x2048x512.size a
  hwx0_0 : ∀ i : grid0.Coords, EltTy.bits .f32 = 32 ∨ (Rect.block (s := S8x2048x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .f32 = 32 ∨ (Rect.block (s := S8x2048x512) S1x2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x2048x512.size a
  hwx0_3 : ∀ i : grid0.Coords, EltTy.bits .f32 = 32 ∨ (Rect.block (s := S8x2048x512) S1x2048x512.size (cc0_transform_3 i) (hinb0_3 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S2048x512_S128x2048_1_1_0_0_n_n : DotDims S128x512 S2048x512 S128x2048 where
  lhsContracting := [1]
  rhsContracting := [1]
  lhsNonContracting := [0]
  rhsNonContracting := [0]
  lhsBatch := []
  rhsBatch := []
  wf := dot_S128x512_S2048x512_S128x2048_1_1_0_0_n_n_wf
def dot_S128x2048_S128x512_S2048x512_0_0_1_1_n_n : DotDims S128x2048 S128x512 S2048x512 where
  lhsContracting := [0]
  rhsContracting := [0]
  lhsNonContracting := [1]
  rhsNonContracting := [1]
  lhsBatch := []
  rhsBatch := []
  wf := dot_S128x2048_S128x512_S2048x512_0_0_1_1_n_n_wf

abbrev win0_0 : Pipeline.Window sig grid0 :=
  Pipeline.Window.ofSpec (Memref.whole main_arg1) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S512x512 : Shape := ⟨2, ![512, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S512x512, .f32⟩
  | .hbm, ⟨3, _⟩ => ⟨S8x2048x512, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048x1, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x512_S8x2048x512_2_0_01_1_n_n_wf : DotDims.WF S8x2048x512 S512x512 S8x2048x512 [2] [0] [0, 1] [1] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_1_1_2_2_0_0_wf : DotDims.WF S8x2048x2048 S8x2048x512 S8x2048x512 [1] [1] [2] [2] [0] [0]

variable [Facts₀]

def dot_S8x2048x512_S512x512_S8x2048x512_2_0_01_1_n_n : DotDims S8x2048x512 S512x512 S8x2048x512 where
  lhsContracting := [2]
  rhsContracting := [0]
  lhsNonContracting := [0, 1]
  rhsNonContracting := [1]
  lhsBatch := []
  rhsBatch := []
  wf := dot_S8x2048x512_S512x512_S8x2048x512_2_0_01_1_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_1_1_2_2_0_0 : DotDims S8x2048x2048 S8x2048x512 S8x2048x512 where
  lhsContracting := [1]
  rhsContracting := [1]
  lhsNonContracting := [2]
  rhsNonContracting := [2]
  lhsBatch := [0]
  rhsBatch := [0]
  wf := dot_S8x2048x2048_S8x2048x512_S8x2048x512_1_1_2_2_0_0_wf

class Facts : Prop extends Facts₀ where

variable [Facts]
-- ==== Proof.Pieces.lean ====
/-
  What one grid point's body leaves behind, read off the stores its run performs.

  At grid point `(b, t)` the body holds the query tile `x0` (rows 128·t … 128·t + 127 of batch `b`), the batch's
  whole source block `x1`, the weight `x2`, and the accumulator. Whatever the control case, the accumulator ends at

      step = acc + (the tile's contribution),

  the contribution being a function of `x0`, `x2`, `x1` and of the rows 128·t … 128·t + 127 of `x1` itself
  (`tileRows`: the second, dynamically offset, load of the source block). The cases differ only in what `acc` is:
  at the first tile of a batch (`t = 0`) it is the zero block the body has just stored and read back, elsewhere it
  is what the point before left. At the last tile (`t = 15`) the body also copies the finished accumulator, with a
  unit axis added in front, into the output block.
-/
import proofs.«164855_j71038759076085_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- Rows 128·t … 128·t + 127 of the batch's source block, `t` the point's second coordinate: the body's second load
    of the source block, through the rectangle at the row offset it computes from `t`. -/
def tileRows (i : grid0.Coords) (x1 : Vec F S1x2048x512 .f32) : Vec F S1x128x512 .f32 :=
  View.ld x1 (Rect.unit (s := S1x2048x512) (k0_off1 i) S1x128x512.size (Gen.k0_off1_inb i))

/-- The accumulator after the point: what it held plus the tile's contribution. -/
def step (i : grid0.Coords) (x0 : Vec F S1x128x512 .f32) (x1 : Vec F S1x2048x512 .f32) (x2 : Vec F S512x512 .f32)
    (acc : Vec F S2048x512 .f32) : Vec F S2048x512 .f32 :=
  k0_pay1 (k0_pay4 x0 x2 x1 (tileRows i x1) acc)

/-- A middle tile (neither first nor last of its batch): the accumulator steps from what the point before left. -/
theorem acc_B (c : Dev nD) (i : grid0.Coords) (a2 : Memref sig .tc .vmem S1x128x512 .f32) (h2 : a2.IsWhole) (a3 : Memref sig .tc .vmem S1x2048x512 .f32) (h3 : a3.IsWhole) (a4 : Memref sig .tc .vmem S512x512 .f32) (h4 : a4.IsWhole) (a5 : Memref sig .tc .vmem S1x2048x512 .f32) (h5 : a5.IsWhole) (a6 : Memref sig .tc .vmem S2048x512 .f32) (h6 : a6.IsWhole) (hc0 : ¬cond0_0 i) (hc1 : ¬cond0_1 i)
    (x0 : Vec F S1x128x512 .f32) (x1 : Vec F S1x2048x512 .f32) (x2 : Vec F S512x512 .f32) (xs0 : Vec F S2048x512 .f32) :
    sout0_B_0 c i a2 h2 a3 h3 a4 h4 a5 h5 a6 h6 hc0 hc1 x0 x1 x2 xs0 = step i x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero zero2]
  simp only [View.readAt_eq_ld, h2.read_unread, h3.read_unread, h4.read_unread, h6.read_unread, View.ld_unit_zero (S := S1x128x512) zero3, View.ld_unit_zero (S := S1x2048x512) zero3, View.ld_unit_zero (S := S512x512) zero2, View.ld_unit_zero (S := S2048x512) zero2]
  rfl

/-- The last tile of a batch: the accumulator steps as at a middle tile … -/
theorem acc_C (c : Dev nD) (i : grid0.Coords) (a2 : Memref sig .tc .vmem S1x128x512 .f32) (h2 : a2.IsWhole) (a3 : Memref sig .tc .vmem S1x2048x512 .f32) (h3 : a3.IsWhole) (a4 : Memref sig .tc .vmem S512x512 .f32) (h4 : a4.IsWhole) (a5 : Memref sig .tc .vmem S1x2048x512 .f32) (h5 : a5.IsWhole) (a6 : Memref sig .tc .vmem S2048x512 .f32) (h6 : a6.IsWhole) (hc0 : ¬cond0_0 i) (hc1 : cond0_1 i)
    (x0 : Vec F S1x128x512 .f32) (x1 : Vec F S1x2048x512 .f32) (x2 : Vec F S512x512 .f32) (xs0 : Vec F S2048x512 .f32) :
    sout0_C_0 c i a2 h2 a3 h3 a4 h4 a5 h5 a6 h6 hc0 hc1 x0 x1 x2 xs0 = step i x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero zero2]
  simp only [View.readAt_eq_ld, h2.read_unread, h3.read_unread, h4.read_unread, h6.read_unread, View.ld_unit_zero (S := S1x128x512) zero3, View.ld_unit_zero (S := S1x2048x512) zero3, View.ld_unit_zero (S := S512x512) zero2, View.ld_unit_zero (S := S2048x512) zero2]
  rfl

/-- … and the output block receives the finished accumulator (read back from the store just made), a unit axis added. -/
theorem out_C (c : Dev nD) (i : grid0.Coords) (a2 : Memref sig .tc .vmem S1x128x512 .f32) (h2 : a2.IsWhole) (a3 : Memref sig .tc .vmem S1x2048x512 .f32) (h3 : a3.IsWhole) (a4 : Memref sig .tc .vmem S512x512 .f32) (h4 : a4.IsWhole) (a5 : Memref sig .tc .vmem S1x2048x512 .f32) (h5 : a5.IsWhole) (a6 : Memref sig .tc .vmem S2048x512 .f32) (h6 : a6.IsWhole) (hc0 : ¬cond0_0 i) (hc1 : cond0_1 i)
    (x0 : Vec F S1x128x512 .f32) (x1 : Vec F S1x2048x512 .f32) (x2 : Vec F S512x512 .f32) (xs0 : Vec F S2048x512 .f32) :
    out0_C_3 c i a2 h2 a3 h3 a4 h4 a5 h5 a6 h6 hc0 hc1 x0 x1 x2 xs0 = k0_pay2 (step i x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero zero3, View.readCov_unit_zero (S := S2048x512) _ zero2]
  simp only [View.readAt_eq_ld, h2.read_unread, h3.read_unread, h4.read_unread, h6.read_unread, View.ld_unit_zero (S := S1x128x512) zero3, View.ld_unit_zero (S := S1x2048x512) zero3, View.ld_unit_zero (S := S512x512) zero2, View.ld_unit_zero (S := S2048x512) zero2]
  rfl

/-- The first tile of a batch: the body stores the zero block, reads it back, and steps from it. -/
theorem acc_A (c : Dev nD) (i : grid0.Coords) (a2 : Memref sig .tc .vmem S1x128x512 .f32) (h2 : a2.IsWhole) (a3 : Memref sig .tc .vmem S1x2048x512 .f32) (h3 : a3.IsWhole) (a4 : Memref sig .tc .vmem S512x512 .f32) (h4 : a4.IsWhole) (a5 : Memref sig .tc .vmem S1x2048x512 .f32) (h5 : a5.IsWhole) (a6 : Memref sig .tc .vmem S2048x512 .f32) (h6 : a6.IsWhole) (hc0 : cond0_0 i) (hc1 : ¬cond0_1 i)
    (x0 : Vec F S1x128x512 .f32) (x1 : Vec F S1x2048x512 .f32) (x2 : Vec F S512x512 .f32) :
    sout0_A_0 c i a2 h2 a3 h3 a4 h4 a5 h5 a6 h6 hc0 hc1 x0 x1 x2 = step i x0 x1 x2 (k0_pay3 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S2048x512) zero2, View.readCov_unit_zero (S := S2048x512) _ zero2]
  simp only [View.readAt_eq_ld, h2.read_unread, h3.read_unread, h4.read_unread, h6.read_unread, View.ld_unit_zero (S := S1x128x512) zero3, View.ld_unit_zero (S := S1x2048x512) zero3, View.ld_unit_zero (S := S512x512) zero2, View.ld_unit_zero (S := S2048x512) zero2]
  rfl

end Cert.KernelIdeal.Pieces

end
-- ==== Proof.Spec.lean ====
/-
  Multiplicative attention over the extended reals, as ONE function of the three argument arrays.

  For a batch `b`, a query row `i` and a source row `j`:
    projected query   qp b i d   = ∑ q, query b i q · w q d
    similarity        sim b i j  = ∑ d, qp b i d · source b j d
    score             the row softmax of `j ↦ sim b i j`
    result            out b j d  = ∑ i, score b i j · source b i d     (the QUERY row is summed)

  The row softmax is spelled exactly as both programs spell it: the row maximum is a fold of `max` from −∞,
  taken once more against −∞; each entry is `exp` of the distance to that maximum; the entries are divided by
  their sum. Nothing here is simplified: a row whose similarity is +∞ somewhere, or junk, gets whatever these
  operations give on the extended reals, the same on both sides.
-/
import Idealize.ShloMosaic.PureOps.Ideal
import Idealize.ShloMosaic.Lib.ValueIdx

noncomputable section

namespace Cert.Attn

open Idealize.ShloMosaic Idealize.ShloMosaic.ValueIdx

/-- −∞, as the float word both row maxima start from. -/
abbrev negInf : EReal := Ideal.ofBits .f32 0xFF800000#32

/-- The maximum of a row of 2048 similarities, from −∞, and once more against −∞. -/
def rowMax (z : Fin 2048 → EReal) : EReal :=
  max negInf ((Finset.univ : Finset (Fin 2048)).fold max negInf z)

/-- `exp` of an entry's distance below the row maximum. -/
def rowExp (z : Fin 2048 → EReal) (j : Fin 2048) : EReal := Ideal.exp (z j - rowMax z)

/-- The row softmax: each exponential over the sum of the row's exponentials. -/
def softmaxRow (z : Fin 2048 → EReal) (j : Fin 2048) : EReal :=
  Ideal.div (rowExp z j) (∑ j' : Fin 2048, rowExp z j')

/-- One query row projected by the weight: `∑ q, x q · w q d`. -/
def project (x : Fin 512 → EReal) (w : (⟨2, ![512, 512]⟩ : Shape).Idx → EReal) (d : Fin 512) : EReal :=
  ∑ q : Fin 512, x q * w (ix2 q d)

/-- The similarity of a projected query row against source row `j` of a batch's `[2048, 512]` source. -/
def similarity (p : Fin 512 → EReal) (src : Fin 2048 → Fin 512 → EReal) (j : Fin 2048) : EReal :=
  ∑ d : Fin 512, p d * src j d

/-- The score of query row `x` against every source row of the batch: the softmax of its similarities. -/
def score (x : Fin 512 → EReal) (w : (⟨2, ![512, 512]⟩ : Shape).Idx → EReal) (src : Fin 2048 → Fin 512 → EReal)
    (j : Fin 2048) : EReal :=
  softmaxRow (similarity (project x w) src) j

/-- THE RESULT at `(b, j, d)`: the sum over the batch's query rows `i` of that row's score at `j` times
    source row `i` at `d`. -/
def out (source query : (⟨3, ![8, 2048, 512]⟩ : Shape).Idx → EReal) (w : (⟨2, ![512, 512]⟩ : Shape).Idx → EReal)
    (y : (⟨3, ![8, 2048, 512]⟩ : Shape).Idx) : EReal :=
  ∑ i : Fin 2048, score (fun q => query (ix3 (y 0) i q)) w (fun j' d' => source (ix3 (y 0) j' d')) (y 1)
    * source (ix3 (y 0) i (y 2))

end Cert.Attn

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.Tile.lean ====
/-
  One grid point's arithmetic, read entry by entry over the extended reals.

  The body's pure term takes the query tile `v3` (128 rows), the weight `v6`, the batch's source block `v10`, the
  128 source rows `v29` that belong to the tile, and the accumulator `v33`. Over the extended reals a change of float
  format is the identity and each matrix product into a zero accumulator is a plain sum, so the term is

      v33 (j, d) + ∑ r, score r j · v29 r d,     score r = the row softmax of  j' ↦ ∑ d', (∑ q, v3 r q · v6 q d') · v10 j' d'.

  The row softmax keeps its reduced axis as a unit column and broadcasts it back along the row (the keepdims form);
  read at an index the column and the broadcast disappear.
-/
import proofs.«164855_j71038759076085_1_alg».proof.Proof.Gen.KernelIdeal.Skeleton
import proofs.«164855_j71038759076085_1_alg».proof.Proof.Spec
import proofs.«164855_j71038759076085_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx Cert.Attn

/-! ## The three matrix products at an index

For each product, first which operand coordinates an output index and a contraction index name (read off the
product's dimension numbers), then the product at an output index as a sum over the contracted coordinate. -/

theorem proj_l0 (i : S128x512.Idx) (q : dot_S128x512_S512x512_S128x512_1_0_0_1_n_n.contr.Idx) : (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl
theorem proj_l1 (i : S128x512.Idx) (q : dot_S128x512_S512x512_S128x512_1_0_0_1_n_n.contr.Idx) : (dot_S128x512_S512x512_S128x512_1_0_0_1_n_n.lhsIdx i q 1).val = (q ⟨0, by decide⟩).val :=
  dot_S128x512_S512x512_S128x512_1_0_0_1_n_n.lhsIdx_val_of_single rfl i q
theorem proj_r0 (i : S128x512.Idx) (q : dot_S128x512_S512x512_S128x512_1_0_0_1_n_n.contr.Idx) : (dot_S128x512_S512x512_S128x512_1_0_0_1_n_n.rhsIdx i q 0).val = (q ⟨0, by decide⟩).val :=
  dot_S128x512_S512x512_S128x512_1_0_0_1_n_n.rhsIdx_val_of_single rfl i q
theorem proj_r1 (i : S128x512.Idx) (q : dot_S128x512_S512x512_S128x512_1_0_0_1_n_n.contr.Idx) : (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl

/-- A `[128, 512]` tile times the `[512, 512]` weight, into a zero accumulator: entry `(r, d)` is `∑ k, a r k · b k d`. -/
theorem mm_project (a : FVec Ideal S128x512 .bf16) (b : FVec Ideal S512x512 .bf16) (r : Fin 128) (d : Fin 512) :
    matmul dot_S128x512_S512x512_S128x512_1_0_0_1_n_n none a b (constant (F := Ideal) S128x512 .f32 0x00000000#32) (ix2 r d)
      = ∑ k : Fin 512, a (ix2 r k) * b (ix2 k d) := by
  refine (Ideal.matmul_constant_zero_apply dot_S128x512_S512x512_S128x512_1_0_0_1_n_n none a b (ix2 r d)).trans ?_
  rw [← Equiv.sum_comp (contrEquiv1 dot_S128x512_S512x512_S128x512_1_0_0_1_n_n 512 rfl rfl).symm]
  refine Finset.sum_congr rfl fun k _ => ?_
  have hk := contrEquiv1_symm_val dot_S128x512_S512x512_S128x512_1_0_0_1_n_n 512 rfl rfl k
  have el : dot_S128x512_S512x512_S128x512_1_0_0_1_n_n.lhsIdx (ix2 r d) ((contrEquiv1 dot_S128x512_S512x512_S128x512_1_0_0_1_n_n 512 rfl rfl).symm k) = ix2 r k :=
    funext fun x => Fin.ext (by
      match x with
      | ⟨0, _⟩ => exact proj_l0 _ _
      | ⟨1, _⟩ => exact (proj_l1 _ _).trans hk)
  have er : dot_S128x512_S512x512_S128x512_1_0_0_1_n_n.rhsIdx (ix2 r d) ((contrEquiv1 dot_S128x512_S512x512_S128x512_1_0_0_1_n_n 512 rfl rfl).symm k) = ix2 k d :=
    funext fun x => Fin.ext (by
      match x with
      | ⟨0, _⟩ => exact (proj_r0 _ _).trans hk
      | ⟨1, _⟩ => exact proj_r1 _ _)
  rw [el, er]

theorem sim_l0 (i : S128x2048.Idx) (q : dot_S128x512_S2048x512_S128x2048_1_1_0_0_n_n.contr.Idx) : (dot_S128x512_S2048x512_S128x2048_1_1_0_0_n_n.lhsIdx i q 0).val = (i 0).val := by
  unfold DotDims.lhsIdx
  rw [dif_neg (show ¬(0 : Fin S128x512.rank) ∈ dot_S128x512_S2048x512_S128x2048_1_1_0_0_n_n.lhsBatch by decide), dif_pos (show (0 : Fin S128x512.rank) ∈ dot_S128x512_S2048x512_S128x2048_1_1_0_0_n_n.lhsNonContracting by decide)]
  rfl
theorem sim_l1 (i : S128x2048.Idx) (q : dot_S128x512_S2048x512_S128x2048_1_1_0_0_n_n.contr.Idx) : (dot_S128x512_S2048x512_S128x2048_1_1_0_0_n_n.lhsIdx i q 1).val = (q ⟨0, by decide⟩).val :=
  dot_S128x512_S2048x512_S128x2048_1_1_0_0_n_n.lhsIdx_val_of_single rfl i q
theorem sim_r0 (i : S128x2048.Idx) (q : dot_S128x512_S2048x512_S128x2048_1_1_0_0_n_n.contr.Idx) : (dot_S128x512_S2048x512_S128x2048_1_1_0_0_n_n.rhsIdx i q 0).val = (i 1).val := by
  unfold DotDims.rhsIdx
  rw [dif_neg (show ¬(0 : Fin S2048x512.rank) ∈ dot_S128x512_S2048x512_S128x2048_1_1_0_0_n_n.rhsBatch by decide), dif_pos (show (0 : Fin S2048x512.rank) ∈ dot_S128x512_S2048x512_S128x2048_1_1_0_0_n_n.rhsNonContracting by decide)]
  rfl
theorem sim_r1 (i : S128x2048.Idx) (q : dot_S128x512_S2048x512_S128x2048_1_1_0_0_n_n.contr.Idx) : (dot_S128x512_S2048x512_S128x2048_1_1_0_0_n_n.rhsIdx i q 1).val = (q ⟨0, by decide⟩).val :=
  dot_S128x512_S2048x512_S128x2048_1_1_0_0_n_n.rhsIdx_val_of_single rfl i q

/-- A `[128, 512]` tile against the `[2048, 512]` source, both contracted along their second axis: entry `(r, j)` is `∑ k, a r k · b j k`. -/
theorem mm_similarity (a : FVec Ideal S128x512 .bf16) (b : FVec Ideal S2048x512 .bf16) (r : Fin 128) (j : Fin 2048) :
    matmul dot_S128x512_S2048x512_S128x2048_1_1_0_0_n_n none a b (constant (F := Ideal) S128x2048 .f32 0x00000000#32) (ix2 r j)
      = ∑ k : Fin 512, a (ix2 r k) * b (ix2 j k) := by
  refine (Ideal.matmul_constant_zero_apply dot_S128x512_S2048x512_S128x2048_1_1_0_0_n_n none a b (ix2 r j)).trans ?_
  rw [← Equiv.sum_comp (contrEquiv1 dot_S128x512_S2048x512_S128x2048_1_1_0_0_n_n 512 rfl rfl).symm]
  refine Finset.sum_congr rfl fun k _ => ?_
  have hk := contrEquiv1_symm_val dot_S128x512_S2048x512_S128x2048_1_1_0_0_n_n 512 rfl rfl k
  have el : dot_S128x512_S2048x512_S128x2048_1_1_0_0_n_n.lhsIdx (ix2 r j) ((contrEquiv1 dot_S128x512_S2048x512_S128x2048_1_1_0_0_n_n 512 rfl rfl).symm k) = ix2 r k :=
    funext fun x => Fin.ext (by
      match x with
      | ⟨0, _⟩ => exact sim_l0 _ _
      | ⟨1, _⟩ => exact (sim_l1 _ _).trans hk)
  have er : dot_S128x512_S2048x512_S128x2048_1_1_0_0_n_n.rhsIdx (ix2 r j) ((contrEquiv1 dot_S128x512_S2048x512_S128x2048_1_1_0_0_n_n 512 rfl rfl).symm k) = ix2 j k :=
    funext fun x => Fin.ext (by
      match x with
      | ⟨0, _⟩ => exact sim_r0 _ _
      | ⟨1, _⟩ => exact (sim_r1 _ _).trans hk)
  rw [el, er]

theorem con_l0 (i : S2048x512.Idx) (q : dot_S128x2048_S128x512_S2048x512_0_0_1_1_n_n.contr.Idx) : (dot_S128x2048_S128x512_S2048x512_0_0_1_1_n_n.lhsIdx i q 0).val = (q ⟨0, by decide⟩).val :=
  dot_S128x2048_S128x512_S2048x512_0_0_1_1_n_n.lhsIdx_val_of_single rfl i q
theorem con_l1 (i : S2048x512.Idx) (q : dot_S128x2048_S128x512_S2048x512_0_0_1_1_n_n.contr.Idx) : (dot_S128x2048_S128x512_S2048x512_0_0_1_1_n_n.lhsIdx i q 1).val = (i 0).val := by
  unfold DotDims.lhsIdx
  rw [dif_neg (show ¬(1 : Fin S128x2048.rank) ∈ dot_S128x2048_S128x512_S2048x512_0_0_1_1_n_n.lhsBatch by decide), dif_pos (show (1 : Fin S128x2048.rank) ∈ dot_S128x2048_S128x512_S2048x512_0_0_1_1_n_n.lhsNonContracting by decide)]
  rfl
theorem con_r0 (i : S2048x512.Idx) (q : dot_S128x2048_S128x512_S2048x512_0_0_1_1_n_n.contr.Idx) : (dot_S128x2048_S128x512_S2048x512_0_0_1_1_n_n.rhsIdx i q 0).val = (q ⟨0, by decide⟩).val :=
  dot_S128x2048_S128x512_S2048x512_0_0_1_1_n_n.rhsIdx_val_of_single rfl i q
theorem con_r1 (i : S2048x512.Idx) (q : dot_S128x2048_S128x512_S2048x512_0_0_1_1_n_n.contr.Idx) : (dot_S128x2048_S128x512_S2048x512_0_0_1_1_n_n.rhsIdx i q 1).val = (i 1).val := by
  unfold DotDims.rhsIdx
  rw [dif_neg (show ¬(1 : Fin S128x512.rank) ∈ dot_S128x2048_S128x512_S2048x512_0_0_1_1_n_n.rhsBatch by decide), dif_pos (show (1 : Fin S128x512.rank) ∈ dot_S128x2048_S128x512_S2048x512_0_0_1_1_n_n.rhsNonContracting by decide)]
  rfl

/-- The `[128, 2048]` scores against the `[128, 512]` tile rows, both contracted along their FIRST axis (the tile's rows): entry `(j, d)` is `∑ k, a k j · b k d`. -/
theorem mm_contribution (a : FVec Ideal S128x2048 .bf16) (b : FVec Ideal S128x512 .bf16) (j : Fin 2048) (d : Fin 512) :
    matmul dot_S128x2048_S128x512_S2048x512_0_0_1_1_n_n none a b (constant (F := Ideal) S2048x512 .f32 0x00000000#32) (ix2 j d)
      = ∑ k : Fin 128, a (ix2 k j) * b (ix2 k d) := by
  refine (Ideal.matmul_constant_zero_apply dot_S128x2048_S128x512_S2048x512_0_0_1_1_n_n none a b (ix2 j d)).trans ?_
  rw [← Equiv.sum_comp (contrEquiv1 dot_S128x2048_S128x512_S2048x512_0_0_1_1_n_n 128 rfl rfl).symm]
  refine Finset.sum_congr rfl fun k _ => ?_
  have hk := contrEquiv1_symm_val dot_S128x2048_S128x512_S2048x512_0_0_1_1_n_n 128 rfl rfl k
  have el : dot_S128x2048_S128x512_S2048x512_0_0_1_1_n_n.lhsIdx (ix2 j d) ((contrEquiv1 dot_S128x2048_S128x512_S2048x512_0_0_1_1_n_n 128 rfl rfl).symm k) = ix2 k j :=
    funext fun x => Fin.ext (by
      match x with
      | ⟨0, _⟩ => exact (con_l0 _ _).trans hk
      | ⟨1, _⟩ => exact con_l1 _ _)
  have er : dot_S128x2048_S128x512_S2048x512_0_0_1_1_n_n.rhsIdx (ix2 j d) ((contrEquiv1 dot_S128x2048_S128x512_S2048x512_0_0_1_1_n_n 128 rfl rfl).symm k) = ix2 k d :=
    funext fun x => Fin.ext (by
      match x with
      | ⟨0, _⟩ => exact (con_r0 _ _).trans hk
      | ⟨1, _⟩ => exact con_r1 _ _)
  rw [el, er]

/-! ## The row softmax at an index -/

/-- A length-128 vector kept as a column and broadcast back along 2048 lanes reads, at `(r, j)`, the vector at `r`. -/
def keep (v : FVec Ideal S128 .f32) : FVec Ideal S128x2048 .f32 :=
  broadcastTo S128x2048 (shapeCast S128x1 v shapeCasts_S128_S128x1) broadcasts_S128x1_S128x2048

theorem keep_apply (v : FVec Ideal S128 .f32) (r : Fin 128) (j : Fin 2048) : keep v (ix2 r j) = v (ix1 r) := by
  unfold keep
  rw [Cert.Keepdims.broadcastTo_a1_ab_apply, Cert.Keepdims.shapeCast_a_a1_apply]

/-- Lane `k` inserted into row `r` is the entry `(r, k)`. -/
theorem lift_row (r : Fin 128) (k : Fin 2048) :
    (reduces_S128x2048_S128 : S128x2048.Reduces [1] S128).lift (ix1 r) k = ix2 r k :=
  funext fun x => Fin.ext (by match x with | ⟨0, _⟩ => rfl | ⟨1, _⟩ => rfl)

/-- The rows' maxima: the lane reduction from −∞, taken once more against −∞. -/
def tileMax (s : FVec Ideal S128x2048 .f32) : FVec Ideal S128 .f32 :=
  maximumf (broadcast S128 (Scalar.ofBits (F := Ideal) .f32 0xFF800000#32))
    (multiReduction .maximumf [1] S128 s 0xFF800000#32 reduces_S128x2048_S128 (.inl rfl) rfl)

theorem tileMax_apply (s : FVec Ideal S128x2048 .f32) (r : Fin 128) :
    tileMax s (ix1 r) = rowMax (fun j => s (ix2 r j)) := by
  unfold tileMax rowMax
  show max (Ideal.ofBits .f32 0xFF800000#32) (multiReduction .maximumf [1] S128 s 0xFF800000#32 reduces_S128x2048_S128 (.inl rfl) rfl (ix1 r)) = _
  refine congrArg (max _) ?_
  refine (Ideal.multiReduction_maximumf_single s 0xFF800000#32 reduces_S128x2048_S128 (.inl rfl) rfl (ix1 r)).trans ?_
  show (Finset.univ : Finset (Fin 2048)).fold max (Ideal.ofBits .f32 0xFF800000#32) (s ∘ reduces_S128x2048_S128.lift (ix1 r)) = _
  refine congrArg (fun f => (Finset.univ : Finset (Fin 2048)).fold max (Ideal.ofBits .f32 0xFF800000#32) f)
    (funext fun (k : Fin 2048) => ?_)
  exact congrArg s (lift_row r k)

/-- The exponentials of the distances below the row maxima. -/
def tileExp (s : FVec Ideal S128x2048 .f32) : FVec Ideal S128x2048 .f32 := exp (subf s (keep (tileMax s)))

theorem tileExp_apply (s : FVec Ideal S128x2048 .f32) (r : Fin 128) (j : Fin 2048) :
    tileExp s (ix2 r j) = rowExp (fun j' => s (ix2 r j')) j := by
  unfold tileExp rowExp
  show Ideal.exp (s (ix2 r j) - keep (tileMax s) (ix2 r j)) = _
  rw [keep_apply, tileMax_apply]

/-- The scores: each exponential over its row's sum. -/
def tileScore (s : FVec Ideal S128x2048 .f32) : FVec Ideal S128x2048 .f32 :=
  divf (tileExp s) (keep (multiReduction .add [1] S128 (tileExp s) 0x00000000#32 reduces_S128x2048_S128 (.inl rfl) rfl))

theorem tileScore_apply (s : FVec Ideal S128x2048 .f32) (r : Fin 128) (j : Fin 2048) :
    tileScore s (ix2 r j) = softmaxRow (fun j' => s (ix2 r j')) j := by
  unfold tileScore softmaxRow
  show Ideal.div (tileExp s (ix2 r j)) (keep _ (ix2 r j)) = _
  rw [keep_apply, tileExp_apply]
  refine congrArg (Ideal.div _) ?_
  refine (Ideal.multiReduction_add_single (tileExp s) 0x00000000#32 reduces_S128x2048_S128 (.inl rfl) rfl (ix1 r)).trans ?_
  show ∑ k : Fin 2048, tileExp s (reduces_S128x2048_S128.lift (ix1 r) k) = _
  refine Finset.sum_congr rfl fun (k : Fin 2048) _ => ?_
  exact (congrArg (tileExp s) (lift_row r k)).trans (tileExp_apply s r k)

/-! ## The payload -/

/-- The tile's contribution to the accumulator, as the body computes it from its four loads. -/
def contribution (v3 : Vec Ideal S1x128x512 .f32) (v6 : Vec Ideal S512x512 .f32) (v10 : Vec Ideal S1x2048x512 .f32)
    (v29 : Vec Ideal S1x128x512 .f32) : FVec Ideal S2048x512 .f32 :=
  matmul dot_S128x2048_S128x512_S2048x512_0_0_1_1_n_n none
    (truncf .bf16 (tileScore (matmul dot_S128x512_S2048x512_S128x2048_1_1_0_0_n_n none
      (truncf .bf16 (matmul dot_S128x512_S512x512_S128x512_1_0_0_1_n_n none
        (truncf .bf16 (shapeCast S128x512 v3 shapeCasts_S1x128x512_S128x512) bitsLt_bf16_f32)
        (truncf .bf16 v6 bitsLt_bf16_f32) (constant S128x512 .f32 0x00000000#32)) bitsLt_bf16_f32)
      (truncf .bf16 (shapeCast S2048x512 v10 shapeCasts_S1x2048x512_S2048x512) bitsLt_bf16_f32)
      (constant S128x2048 .f32 0x00000000#32))) bitsLt_bf16_f32)
    (truncf .bf16 (shapeCast S128x512 v29 shapeCasts_S1x128x512_S128x512) bitsLt_bf16_f32)
    (constant S2048x512 .f32 0x00000000#32)

/-- The body's pure term is the accumulator plus the contribution. -/
theorem pay4_eq (v3 : Vec Ideal S1x128x512 .f32) (v6 : Vec Ideal S512x512 .f32) (v10 : Vec Ideal S1x2048x512 .f32)
    (v29 : Vec Ideal S1x128x512 .f32) (v33 : Vec Ideal S2048x512 .f32) :
    k0_pay4 v3 v6 v10 v29 v33 = addf v33 (contribution v3 v6 v10 v29) := rfl

/-- THE CONTRIBUTION at `(j, d)`: over the tile's 128 rows `r`, the score of query row `r` at source row `j` times tile
    row `r` at `d`. -/
theorem contribution_apply (v3 : Vec Ideal S1x128x512 .f32) (v6 : Vec Ideal S512x512 .f32) (v10 : Vec Ideal S1x2048x512 .f32)
    (v29 : Vec Ideal S1x128x512 .f32) (j : Fin 2048) (d : Fin 512) :
    contribution v3 v6 v10 v29 (ix2 j d)
      = ∑ r : Fin 128, score (fun q => v3 (ix3 (0 : Fin 1) r q)) v6 (fun j' d' => v10 (ix3 (0 : Fin 1) j' d')) j
          * v29 (ix3 (0 : Fin 1) r d) := by
  unfold contribution
  rw [mm_contribution]
  refine Finset.sum_congr rfl fun r _ => ?_
  simp only [truncf_apply]
  rw [tileScore_apply, shapeCast_1ab_ab_apply]
  refine congrArg (fun z => softmaxRow z j * _) ?_
  funext j'
  rw [mm_similarity]
  unfold similarity
  refine Finset.sum_congr rfl fun d' _ => ?_
  simp only [truncf_apply]
  rw [mm_project, shapeCast_1ab_ab_apply]
  refine congrArg (· * _) ?_
  unfold project
  refine Finset.sum_congr rfl fun q _ => ?_
  simp only [truncf_apply]
  rw [shapeCast_1ab_ab_apply]

end Cert.KernelIdeal.Tile

end
-- ==== Proof.TileSum.lean ====
/-
  A sum over 2048 rows regrouped as 16 consecutive tiles of 128 rows, in any additive commutative monoid
  (used at the extended reals, where addition is associative and commutative although not cancellative):
  row `i` is row `r` of tile `t` exactly when `i = 128 * t + r`.
-/
import Mathlib.Algebra.BigOperators.Fin
import Mathlib.Logic.Equiv.Fin.Basic

namespace Cert.TileSum

open Finset

/-- Row `r` of tile `t`, as a row of the whole array. -/
def row (t : Fin 16) (r : Fin 128) : Fin 2048 := ⟨128 * t.val + r.val, by omega⟩

@[simp] theorem row_val (t : Fin 16) (r : Fin 128) : (row t r).val = 128 * t.val + r.val := rfl

/-- Every row lies in exactly one tile: the sum over all rows is the sum, over the tiles, of the tile's rows. -/
theorem sum_rows {M : Type*} [AddCommMonoid M] (f : Fin 2048 → M) :
    ∑ i : Fin 2048, f i = ∑ t : Fin 16, ∑ r : Fin 128, f (row t r) := by
  rw [← Fintype.sum_prod_type' (f := fun t r => f (row t r))]
  refine (Fintype.sum_equiv (finProdFinEquiv (m := 16) (n := 128)) _ _ ?_).symm
  rintro ⟨t, r⟩
  refine congrArg f (Fin.ext ?_)
  simp [finProdFinEquiv, row, Nat.add_comm]

end Cert.TileSum
-- ==== Proof.Blocks.lean ====
/-
  Where each window's block sits in its array, and what the body's small casts do at an index.

  Grid point `t` is batch `t / 16`, query tile `t % 16`. There the query window holds rows 128·(t % 16) … of batch
  `t / 16` of the query array, the source window the whole batch `t / 16` of the source array, the weight window the
  whole weight, and the body's second load of the source block picks its rows 128·(t % 16) … as well. The output
  window's block is the whole batch `t / 16` of the result array.
-/
import proofs.«164855_j71038759076085_1_alg».proof.Proof.Gen.KernelIdeal.Frame
import proofs.«164855_j71038759076085_1_alg».proof.Proof.Pieces
import proofs.«164855_j71038759076085_1_alg».proof.Proof.Tile
import proofs.«164855_j71038759076085_1_alg».proof.Proof.TileSum
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem

namespace Cert.KernelIdeal.Blocks

open Cert.KernelIdeal Cert.KernelIdeal.Gen Idealize.ShloMosaic.ValueIdx Cert.TileSum

variable (m : (ℓ : Loc nD τ sig) → Buf (Elt Ideal) ℓ)

/-- The printed index maps over the grid: batch `t / 16` on the leading axis of the query, source and output windows,
    tile `t % 16` on the query window's row axis, zero elsewhere; and the point's second coordinate is `t % 16`. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val / 16 ∧ win0_3.index t (1 : Fin 3) = 0 ∧ win0_3.index t (2 : Fin 3) = 0
    ∧ (grid0.coords t (1 : Fin 2)).val = t.val % 16 :=
  (by decide +kernel : ∀ t : Fin grid0.N, _)

/-- The batch of a grid point. -/
def batch (t : Fin cfg0.N) : Fin 8 := ⟨t.val / 16, by have := t.isLt; have : cfg0.N = 128 := N_0; omega⟩
/-- The query tile of a grid point. -/
def tile (t : Fin cfg0.N) : Fin 16 := ⟨t.val % 16, Nat.mod_lt _ (by decide)⟩

@[simp] theorem batch_val (t : Fin cfg0.N) : (batch t).val = t.val / 16 := rfl
@[simp] theorem tile_val (t : Fin cfg0.N) : (tile t).val = t.val % 16 := rfl

/-- The query window's block at `t`: row `r` of the tile is row `128·(t % 16) + r` of batch `t / 16`. -/
theorem query_blk (c : Dev nD) (t : Fin cfg0.N) (r : Fin 128) (q : Fin 512) :
    (iblk m c 0 t : Vec Ideal S1x128x512 .f32) (ix3 (0 : Fin 1) r q) = V m c main_arg1 (ix3 (batch t) (row (tile t) r) q) := by
  obtain ⟨e0, e1, e2, -⟩ := idx_facts t
  unfold iblk
  rw [View.read_apply]
  show V m c main_arg1 _ = V m c main_arg1 _
  refine congrArg (V m c main_arg1) (funext fun a => Fin.ext ?_)
  match a with
  | ⟨0, _⟩ => show win0_0.index t (0 : Fin 3) * 1 + 1 * 0 = t.val / 16; omega
  | ⟨1, _⟩ => show win0_0.index t (1 : Fin 3) * 128 + 1 * r.val = 128 * (t.val % 16) + r.val; omega
  | ⟨2, _⟩ => show win0_0.index t (2 : Fin 3) * 512 + 1 * q.val = q.val; omega

/-- The source window's block at `t`: the whole batch `t / 16`. -/
theorem source_blk (c : Dev nD) (t : Fin cfg0.N) (j : Fin 2048) (d : Fin 512) :
    (iblk m c 1 t : Vec Ideal S1x2048x512 .f32) (ix3 (0 : Fin 1) j d) = V m c main_arg0 (ix3 (batch t) j d) := by
  obtain ⟨-, -, -, e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_1.index t (0 : Fin 3) * 1 + 1 * 0 = t.val / 16; omega
  | ⟨1, _⟩ => show win0_1.index t (1 : Fin 3) * 2048 + 1 * j.val = j.val; omega
  | ⟨2, _⟩ => show win0_1.index t (2 : Fin 3) * 512 + 1 * d.val = d.val; omega

/-- The weight window's block at `t`: the whole weight. -/
theorem weight_blk (c : Dev nD) (t : Fin cfg0.N) :
    (iblk m c 2 t : Vec Ideal S512x512 .f32) = V m c main_arg2 := by
  obtain ⟨-, -, -, -, -, -, e0, e1, -⟩ := idx_facts t
  funext y
  unfold iblk
  rw [View.read_apply]
  show V m c main_arg2 _ = V m c main_arg2 _
  refine congrArg (V m c main_arg2) (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- The body's second load of a source block `x1` at point coordinates `i`: row `r` is row `128·i₁ + r` of `x1`. -/
theorem tileRows_apply (i : grid0.Coords) (x1 : Vec Ideal S1x2048x512 .f32) (r : Fin 128) (d : Fin 512)
    (hr : 128 * (i 1).val + r.val < 2048) :
    Pieces.tileRows i x1 (ix3 (0 : Fin 1) r d) = x1 (ix3 (0 : Fin 1) (⟨128 * (i 1).val + r.val, hr⟩ : Fin 2048) d) := by
  unfold Pieces.tileRows
  show x1 _ = x1 _
  refine congrArg x1 (funext fun a => Fin.ext ?_)
  have ho := k0_off1_eq i
  match a with
  | ⟨0, _⟩ => show k0_off1 i 0 + 1 * 0 = 0; rw [ho]; rfl
  | ⟨1, _⟩ => show k0_off1 i 1 + 1 * r.val = 128 * (i 1).val + r.val; rw [ho]; show 128 * (i 1).val + 1 * r.val = _; omega
  | ⟨2, _⟩ => show k0_off1 i 2 + 1 * d.val = d.val; rw [ho]; show 0 + 1 * d.val = _; omega

/-- … so at grid point `t` those are the tile's own rows of batch `t / 16` of the source array. -/
theorem tile_blk (c : Dev nD) (t : Fin cfg0.N) (r : Fin 128) (d : Fin 512) :
    Pieces.tileRows (grid0.coords t) (iblk m c 1 t : Vec Ideal S1x2048x512 .f32) (ix3 (0 : Fin 1) r d)
      = V m c main_arg0 (ix3 (batch t) (row (tile t) r) d) := by
  have e := (idx_facts t).2.2.2.2.2.2.2.2.2.2.2
  have hr : 128 * (grid0.coords t 1).val + r.val < 2048 := by have := r.isLt; have := Nat.mod_lt t.val (show 0 < 16 by decide); omega
  refine (tileRows_apply (grid0.coords t) (iblk m c 1 t) r d hr).trans ?_
  refine (source_blk m c t ⟨128 * (grid0.coords t 1).val + r.val, hr⟩ d).trans ?_
  refine congrArg (V m c main_arg0) (funext fun a => Fin.ext ?_)
  match a with
  | ⟨0, _⟩ => rfl
  | ⟨1, _⟩ => show 128 * (grid0.coords t 1).val + r.val = 128 * (t.val % 16) + r.val; rw [e]
  | ⟨2, _⟩ => rfl

/-! ## The body's small casts at an index -/

/-- The block the reset stores is zero everywhere. -/
theorem pay3_apply (y : S2048x512.Idx) : (k0_pay3 (F := Ideal)) y = 0 := by
  show shapeCast S2048x512 (broadcast S2048x512 (Scalar.ofBits (F := Ideal) .f32 0x00000000#32)) shapeCasts_S2048x512_S2048x512 y = 0
  rw [shapeCast_self]
  exact Ideal.ofBits_zero_f32

/-- The accumulator after a point, at an index: what it held plus the tile's contribution there. -/
theorem step_apply (i : grid0.Coords) (x0 : Vec Ideal S1x128x512 .f32) (x1 : Vec Ideal S1x2048x512 .f32)
    (x2 : Vec Ideal S512x512 .f32) (acc : Vec Ideal S2048x512 .f32) (y : S2048x512.Idx) :
    Pieces.step i x0 x1 x2 acc y = acc y + Tile.contribution x0 x2 x1 (Pieces.tileRows i x1) y := by
  unfold Pieces.step
  show shapeCast S2048x512 (k0_pay4 x0 x2 x1 (Pieces.tileRows i x1) acc) shapeCasts_S2048x512_S2048x512 y = _
  rw [shapeCast_self, Tile.pay4_eq]
  rfl

/-- The copy into the output block adds a unit axis in front: entry `(0, p, d)` is the accumulator's `(p, d)`. -/
theorem pay2_apply (X : Vec Ideal S2048x512 .f32) (u : Fin 1) (p : Fin 2048) (d : Fin 512) :
    k0_pay2 X (ix3 u p d) = X (ix2 p d) :=
  shapeCast_ab_1ab_apply X _ u p d

end Cert.KernelIdeal.Blocks

end
-- ==== Proof.Accum.lean ====
/-
  The accumulator across a batch's sixteen tiles.

  Whatever its control case, a point leaves in the accumulator what it found plus the point's contribution; the first
  tile of a batch finds the zero block. So after point `t` the accumulator holds, entry by entry,

      0 + ∑ s ≤ t % 16, (the contribution of point 16·(t / 16) + s):

  the fold over the batch's points so far, summed without enumerating the grid.
-/
import proofs.«164855_j71038759076085_1_alg».proof.Proof.Gen.KernelIdeal.Value
import proofs.«164855_j71038759076085_1_alg».proof.Proof.Blocks
import Idealize.ShloMosaic.Lib.Pipeline.Value

noncomputable section

open Idealize.ShloMosaic Idealize.ShloMosaic.TcCoe Idealize.SL.Sem

namespace Cert.KernelIdeal.Accum

open Cert.KernelIdeal Cert.KernelIdeal.Gen Cert.KernelIdeal.Value Idealize.ShloMosaic.ValueIdx

variable (m : (ℓ : Loc nD τ sig) → Buf (Elt Ideal) ℓ)

/-- The contribution of point `t`: the tile's contribution at the point's blocks. -/
def pointTerm (c : Dev nD) (t : Fin cfg0.N) : S2048x512.Idx → EReal :=
  Tile.contribution (iblk m c 0 t) (iblk m c 2 t) (iblk m c 1 t) (Pieces.tileRows (grid0.coords t) (iblk m c 1 t))

/-- The same for every natural number (zero past the grid, never used): the summand of the fold. -/
def addend (c : Dev nD) (n : ℕ) (y : S2048x512.Idx) : EReal :=
  if h : n < cfg0.N then pointTerm m c ⟨n, h⟩ y else 0

theorem addend_lt (c : Dev nD) (n : ℕ) (h : n < cfg0.N) (y : S2048x512.Idx) :
    addend m c n y = pointTerm m c ⟨n, h⟩ y := dif_pos h

/-- At the first tile of a batch the accumulator ends at zero plus the point's contribution. -/
theorem first (c : Dev nD) (n : ℕ) (h : n < cfg0.N) (h0 : n % 16 = 0) (acc : Vec Ideal S2048x512 .f32) (y : S2048x512.Idx) :
    scAt0_0 m c n h acc y = 0 + addend m c n y := by
  have h1 : ¬n % 16 = 15 := by omega
  unfold scAt0_0
  rw [dif_pos h0, dif_neg h1]
  refine (congrFun (Pieces.acc_A c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N))) y).trans ?_
  refine (Blocks.step_apply (grid0.coords (⟨n, h⟩ : Fin cfg0.N)) (iblk m c 0 (⟨n, h⟩ : Fin cfg0.N)) (iblk m c 1 (⟨n, h⟩ : Fin cfg0.N)) (iblk m c 2 (⟨n, h⟩ : Fin cfg0.N)) (k0_pay3 (F := Ideal)) y).trans ?_
  rw [Blocks.pay3_apply, addend_lt m c n h]
  rfl

/-- At every other tile it ends at what the point before left plus the point's contribution. -/
theorem later (c : Dev nD) (n : ℕ) (h : n < cfg0.N) (h0 : ¬n % 16 = 0) (acc : Vec Ideal S2048x512 .f32) (y : S2048x512.Idx) :
    scAt0_0 m c n h acc y = acc y + addend m c n y := by
  unfold scAt0_0
  rw [dif_neg h0]
  by_cases h1 : n % 16 = 15
  · rw [dif_pos h1]
    refine (congrFun (Pieces.acc_C c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) acc) y).trans ?_
    refine (Blocks.step_apply (grid0.coords (⟨n, h⟩ : Fin cfg0.N)) (iblk m c 0 (⟨n, h⟩ : Fin cfg0.N)) (iblk m c 1 (⟨n, h⟩ : Fin cfg0.N)) (iblk m c 2 (⟨n, h⟩ : Fin cfg0.N)) acc y).trans ?_
    rw [addend_lt m c n h]
    rfl
  · rw [dif_neg h1]
    refine (congrFun (Pieces.acc_B c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) acc) y).trans ?_
    refine (Blocks.step_apply (grid0.coords (⟨n, h⟩ : Fin cfg0.N)) (iblk m c 0 (⟨n, h⟩ : Fin cfg0.N)) (iblk m c 1 (⟨n, h⟩ : Fin cfg0.N)) (iblk m c 2 (⟨n, h⟩ : Fin cfg0.N)) acc y).trans ?_
    rw [addend_lt m c n h]
    rfl

/-- THE ACCUMULATOR after point `t`: zero plus the contributions of the batch's points up to `t`. -/
theorem scratch_eq (c : Dev nD) (t : Fin cfg0.N) (y : S2048x512.Idx) :
    (outsAt0 m c t.val t.isLt).2 y
      = 0 + ∑ s ∈ Finset.range (t.val % 16 + 1), addend m c (16 * (t.val / 16) + s) y := by
  rw [soutsAt0_0_eq m c t]
  refine Pipeline.accAt_add_apply _ _ (fun _ => (0 : EReal)) (addend m c) (16 * (t.val / 16)) 15
    (fun h y => first m c _ h (Nat.mul_mod_right 16 _) _ y)
    (fun n h acc y hlo hhi => later m c n h (by omega) acc y)
    (t.val % 16) (by have := Nat.mod_lt t.val (show 0 < 16 by decide); omega) _ y

end Cert.KernelIdeal.Accum

end
-- ==== Proof.KernelValue.lean ====
/-
  The kernel's result array is the specification.

  Fix a batch `b`, a source row `p` and a feature `d`, and write `term i` for `score b i p · source b i d`: the
  result at `(b, p, d)` is `∑ i, term i` over the 2048 query rows. Point `t` of the grid contributes
  `∑ r, term (128·(t % 16) + r)` over its tile's 128 rows, the accumulator after the batch's last tile holds zero plus
  the sixteen contributions, and every query row lies in exactly one tile: the two sums are one.
  Only the batch's last point writes the output block back, and those eight blocks are the eight batches of the result
  array, so the array ends holding the specification everywhere.
-/
import proofs.«164855_j71038759076085_1_alg».proof.Proof.Gen.KernelIdeal.Value
import proofs.«164855_j71038759076085_1_alg».proof.Proof.Accum
import proofs.«164855_j71038759076085_1_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.Value Cert.KernelIdeal.Blocks Idealize.ShloMosaic.ValueIdx
open Cert.Attn Cert.TileSum

variable (m : (ℓ : Loc nD τ sig) → Buf (Elt Ideal) ℓ) (ρ : Dev nD → PrngReg)

/-- The specification at the arrays as the region finds them. -/
abbrev G (c : Dev nD) : Buf (Elt Ideal) ((c : Thread nD τ).loc main_v0) :=
  Attn.out (V m c main_arg0) (V m c main_arg1) (V m c main_arg2)

/-- Query row `i`'s share of the result at `(b, p, d)`. -/
def term (c : Dev nD) (b : Fin 8) (p : Fin 2048) (d : Fin 512) (i : Fin 2048) : EReal :=
  score (fun q => V m c main_arg1 (ix3 b i q)) (V m c main_arg2) (fun j' d' => V m c main_arg0 (ix3 b j' d')) p
    * V m c main_arg0 (ix3 b i d)

theorem G_apply (c : Dev nD) (b : Fin 8) (p : Fin 2048) (d : Fin 512) :
    G m c (ix3 b p d) = ∑ i : Fin 2048, term m c b p d i := rfl

/-- Point `t`'s contribution at `(p, d)`: the shares of its tile's 128 query rows. -/
theorem pointTerm_apply (c : Dev nD) (t : Fin cfg0.N) (p : Fin 2048) (d : Fin 512) :
    Accum.pointTerm m c t (ix2 p d) = ∑ r : Fin 128, term m c (batch t) p d (row (tile t) r) := by
  unfold Accum.pointTerm
  refine (Tile.contribution_apply (iblk m c 0 t) (iblk m c 2 t) (iblk m c 1 t)
    (Pieces.tileRows (grid0.coords t) (iblk m c 1 t)) p d).trans ?_
  refine Finset.sum_congr rfl fun r _ => ?_
  unfold term
  have e1 : (fun q => (iblk m c 0 t : Vec Ideal S1x128x512 .f32) (ix3 (0 : Fin 1) r q))
      = fun q => V m c main_arg1 (ix3 (batch t) (row (tile t) r) q) := funext fun q => query_blk m c t r q
  have e2 : (fun j' d' => (iblk m c 1 t : Vec Ideal S1x2048x512 .f32) (ix3 (0 : Fin 1) j' d'))
      = fun j' d' => V m c main_arg0 (ix3 (batch t) j' d') := funext fun j' => funext fun d' => source_blk m c t j' d'
  rw [tile_blk m c t r d, e1, e2, weight_blk m c t]

/-- THE ACCUMULATOR after a batch's last tile, at `(p, d)`, is the result at `(b, p, d)`. -/
theorem acc_last (c : Dev nD) (t : Fin cfg0.N) (h15 : t.val % 16 = 15) (p : Fin 2048) (d : Fin 512) :
    (outsAt0 m c t.val t.isLt).2 (ix2 p d) = G m c (ix3 (batch t) p d) := by
  rw [Accum.scratch_eq m c t (ix2 p d), h15, zero_add, Finset.sum_range, G_apply, sum_rows (term m c (batch t) p d)]
  show ∑ s : Fin 16, Accum.addend m c (16 * (t.val / 16) + s.val) (ix2 p d) = _
  refine Finset.sum_congr rfl fun s _ => ?_
  have hn : 16 * (t.val / 16) + s.val < cfg0.N := by
    have := t.isLt; have hN : cfg0.N = 128 := N_0; have := s.isLt; omega
  have hb : batch ⟨16 * (t.val / 16) + s.val, hn⟩ = batch t := Fin.ext (by
    show (16 * (t.val / 16) + s.val) / 16 = t.val / 16; have := s.isLt; omega)
  have hs : tile ⟨16 * (t.val / 16) + s.val, hn⟩ = s := Fin.ext (by
    show (16 * (t.val / 16) + s.val) % 16 = s.val; have := s.isLt; omega)
  rw [Accum.addend_lt m c _ hn, pointTerm_apply, hb, hs]

/-- What the last point copies into the output block, entry by entry. -/
theorem out_blk (c : Dev nD) (t : Fin cfg0.N) (h15 : t.val % 16 = 15) (j : S1x2048x512.Idx) :
    k0_pay2 ((outsAt0 m c t.val t.isLt).2) j = G m c (ix3 (batch t) (j 1) (j 2)) := by
  obtain ⟨u, p, d, rfl⟩ : ∃ (u : Fin 1) (p : Fin 2048) (d : Fin 512), j = ix3 u p d := ⟨j 0, j 1, j 2, eq_ix3 j⟩
  rw [pay2_apply]
  exact acc_last m c t h15 p d

/-- At a batch's last point the accumulator is the step from what the point before left … -/
theorem last_acc (c : Dev nD) (t : Fin cfg0.N) (h0 : ¬t.val % 16 = 0) (h15 : t.val % 16 = 15) :
    (outsAt0 m c t.val t.isLt).2
      = Pieces.step (grid0.coords t) (iblk m c 0 t) (iblk m c 1 t) (iblk m c 2 t) (outsAt0 m c (t.val - 1) (Nat.lt_of_le_of_lt (Nat.sub_le _ _) t.isLt)).2 := by
  rw [outsAt0_C m c t h0 h15]
  dsimp only
  exact Pieces.acc_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h15) (iblk m c 0 t) (iblk m c 1 t) (iblk m c 2 t) (outsAt0 m c (t.val - 1) (Nat.lt_of_le_of_lt (Nat.sub_le _ _) t.isLt)).2

/-- … and the output block is that step with a unit axis in front. -/
theorem last_out (c : Dev nD) (t : Fin cfg0.N) (h0 : ¬t.val % 16 = 0) (h15 : t.val % 16 = 15) :
    (outsAt0 m c t.val t.isLt).1
      = k0_pay2 (Pieces.step (grid0.coords t) (iblk m c 0 t) (iblk m c 1 t) (iblk m c 2 t) (outsAt0 m c (t.val - 1) (Nat.lt_of_le_of_lt (Nat.sub_le _ _) t.isLt)).2) := by
  rw [outsAt0_C m c t h0 h15]
  dsimp only
  exact Pieces.out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h15) (iblk m c 0 t) (iblk m c 1 t) (iblk m c 2 t) (outsAt0 m c (t.val - 1) (Nat.lt_of_le_of_lt (Nat.sub_le _ _) t.isLt)).2

/-- The output window's block at `t` embeds `(u, p, d)` at `(t / 16, p, d)`. -/
theorem out_emb (t : Fin cfg0.N) (j : S1x2048x512.Idx) :
    ((cfg0.win 3).blk t).view.emb j = ix3 (batch t) (j 1) (j 2) := by
  obtain ⟨-, -, -, -, -, -, -, -, e0, e1, e2, -⟩ := idx_facts t
  have hj0 : (j 0).val < 1 := (j 0).isLt
  refine funext fun a => Fin.ext ?_
  match a with
  | ⟨0, _⟩ => show win0_3.index t (0 : Fin 3) * 1 + 1 * (j 0).val = t.val / 16; omega
  | ⟨1, _⟩ => show win0_3.index t (1 : Fin 3) * 2048 + 1 * (j 1).val = (j 1).val; omega
  | ⟨2, _⟩ => show win0_3.index t (2 : Fin 3) * 512 + 1 * (j 2).val = (j 2).val; omega

/-- WHAT A WRITING POINT WRITES BACK is its block of the specification. -/
theorem flushed_eq (c : Dev nD) (t : Fin cfg0.N) (hf : (cfg0.win 3).flush t = true) :
    (dats m 0 c).flushed 3 t = ((cfg0.win 3).blk t).view.read (Elt Ideal) (G m c) := by
  have h15 : t.val % 16 = 15 := (flush0_3 t).mp hf
  have h0 : ¬t.val % 16 = 0 := by omega
  show (cfg0.win 3).cut (grid0.coords t) ((dats m 0 c).after 3 t) = _
  rw [after0_3, last_out m c t h0 h15, ← last_acc m c t h0 h15]
  funext j
  rw [View.read_apply]
  show k0_pay2 ((outsAt0 m c t.val t.isLt).2) j = G m c (((cfg0.win 3).blk t).view.emb j)
  rw [out_emb]
  exact out_blk m c t h15 j

/-- An index of the result array is in point `t`'s block iff each coordinate is in the block's range on its axis. -/
theorem mem_blk (t : Fin cfg0.N) (i : S8x2048x512.Idx) :
    i ∈ ((cfg0.win 3).blk t).view.set ↔ ∀ a : Fin 3, win0_3.index t a * S1x2048x512.size a ≤ (i a).val
      ∧ (i a).val < win0_3.index t a * S1x2048x512.size a + S1x2048x512.size a := by
  show i ∈ ((View.whole main_v0).slice (win0_3.rect t)).set ↔ _
  rw [View.set_slice_whole, Rect.mem_set_unit]
  exact Iff.rfl

/-- Every index of the result array is in the block of its batch's last point, which writes back. -/
theorem cover (i : S8x2048x512.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 512 := (i 2).isLt
  have hN : cfg0.N = 128 := N_0
  refine ⟨⟨16 * (i 0).val + 15, by omega⟩, (flush0_3 _).mpr (by show (16 * (i 0).val + 15) % 16 = 15; omega), ?_⟩
  rw [mem_blk]
  obtain ⟨-, -, -, -, -, -, -, -, e0, e1, e2, -⟩ := idx_facts ⟨16 * (i 0).val + 15, by omega⟩
  have eb : (16 * (i 0).val + 15) / 16 = (i 0).val := by omega
  intro a
  match a with
  | ⟨0, _⟩ =>
    show win0_3.index _ (0 : Fin 3) * 1 ≤ (i 0).val ∧ (i 0).val < win0_3.index _ (0 : Fin 3) * 1 + 1
    rw [e0]; show (16 * (i 0).val + 15) / 16 * 1 ≤ (i 0).val ∧ (i 0).val < (16 * (i 0).val + 15) / 16 * 1 + 1
    rw [eb]; omega
  | ⟨1, _⟩ =>
    show win0_3.index _ (1 : Fin 3) * 2048 ≤ (i 1).val ∧ (i 1).val < win0_3.index _ (1 : Fin 3) * 2048 + 2048
    rw [e1]; omega
  | ⟨2, _⟩ =>
    show win0_3.index _ (2 : Fin 3) * 512 ≤ (i 2).val ∧ (i 2).val < win0_3.index _ (2 : Fin 3) * 512 + 512
    rw [e2]; omega

/-- THE RESULT ARRAY after the run is the specification. -/
theorem final (c : Dev nD) : (dats m 0 c).arrAt 3 cfg0.N = G m c :=
  (dats m 0 c).arrAt_eq_of_cover 3 (G m c) (fun t hf => flushed_eq m c t hf) cover

/-- The run, read: the result array at the specification of the argument arrays, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.RunValue

end
-- ==== Proof.RefValue.lean ====
/-
  The reference, stage by stage at an index, is the specification.

  Read at `(b, i, d)` the projection is `∑ q, query b i q · w q d`; at `(b, i, j)` the similarity is its product
  with source row `j`; the row maximum is the fold of `max` from −∞ over `j`, taken once more against −∞; the
  exponentials, their sum from a zero initial value (so the plain sum), and the quotient are the row softmax; and the
  last product sums the QUERY row `i` of `score b i j · source b i d`.
-/
import proofs.«164855_j71038759076085_1_alg».proof.Proof.Gen.ReferenceIdeal.Read
import proofs.«164855_j71038759076085_1_alg».proof.Proof.Spec
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Attn

variable (x0 x1 : (⟨S8x2048x512, .f32⟩ : BufTy).Contents (Elt Ideal)) (x2 : (⟨S512x512, .f32⟩ : BufTy).Contents (Elt Ideal))

/-- The batch's source as rows. -/
abbrev srcRows (b : Fin 8) : Fin 2048 → Fin 512 → EReal := fun j' d' => x0 (ix3 b j' d')

/-- Query row `i` of batch `b`. -/
abbrev qRow (b : Fin 8) (i : Fin 2048) : Fin 512 → EReal := fun q => x1 (ix3 b i q)

/-- The projection at `(b, i, d)`. -/
theorem proj_at (b : Fin 8) (i : Fin 2048) (d : Fin 512) :
    val_main_v0 (F := Ideal) x1 x2 (ix3 b i d) = project (qRow x1 b i) x2 d := by
  rw [val_main_v0_apply]
  unfold project
  refine Finset.sum_congr rfl fun k _ => ?_
  have el : lidx_main_v0 (ix3 b i d) k = ix3 b i k :=
    funext fun a => Fin.ext (by match a with | ⟨0, _⟩ => rfl | ⟨1, _⟩ => rfl | ⟨2, _⟩ => rfl)
  have er : ridx_main_v0 (ix3 b i d) k = ix2 k d :=
    funext fun a => Fin.ext (by match a with | ⟨0, _⟩ => rfl | ⟨1, _⟩ => rfl)
  rw [el, er]

/-- The similarity at `(b, i, j)`. -/
theorem sim_at (b : Fin 8) (i j : Fin 2048) :
    val_main_v1 (F := Ideal) x0 x1 x2 (ix3 b i j) = similarity (project (qRow x1 b i) x2) (srcRows x0 b) j := by
  rw [val_main_v1_apply]
  unfold similarity
  refine Finset.sum_congr rfl fun k _ => ?_
  have el : lidx_main_v1 (ix3 b i j) k = ix3 b i k :=
    funext fun a => Fin.ext (by match a with | ⟨0, _⟩ => rfl | ⟨1, _⟩ => rfl | ⟨2, _⟩ => rfl)
  have er : ridx_main_v1 (ix3 b i j) k = ix3 b j k :=
    funext fun a => Fin.ext (by match a with | ⟨0, _⟩ => rfl | ⟨1, _⟩ => rfl | ⟨2, _⟩ => rfl)
  rw [el, er, proj_at]

/-- The similarities of query row `i` of batch `b`, as a row. -/
abbrev simRow (b : Fin 8) (i : Fin 2048) : Fin 2048 → EReal :=
  similarity (project (qRow x1 b i) x2) (srcRows x0 b)

theorem red : S8x2048x2048.Reduces [2] S8x2048 := by decide

/-- Source row `k` inserted on the reduced axis of `(b, i)` is `(b, i, k)`. -/
theorem lift_at (b : Fin 8) (i k : Fin 2048) : (red.lift (ix2 b i) k : S8x2048x2048.Idx) = ix3 b i k :=
  funext fun a => Fin.ext (by match a with | ⟨0, _⟩ => rfl | ⟨1, _⟩ => rfl | ⟨2, _⟩ => rfl)

/-- The row maximum at `(b, i)`: the reduce from −∞, then once more against −∞. -/
theorem max_at (b : Fin 8) (i : Fin 2048) :
    val_main_v4 (F := Ideal) x0 x1 x2 (ix2 b i) = rowMax (simRow x0 x1 x2 b i) := by
  rw [val_main_v4_apply]
  unfold rowMax
  show max (Ideal.ofBits .f32 0xFF800000#32) (val_main_v2 (F := Ideal) x0 x1 x2 (ix2 b i)) = _
  refine congrArg (max _) ?_
  unfold val_main_v2
  rw [Host.reduce_eq_fold_single FloatOps.maximumf _ _ reducesTo_S8x2048x2048_S8x2048_d2 red h_S_ (ix2 b i)]
  show (Finset.univ : Finset (Fin 2048)).fold max (Ideal.ofBits .f32 0xFF800000#32)
      (val_main_v1 (F := Ideal) x0 x1 x2 ∘ red.lift (ix2 b i)) = _
  refine congrArg (fun f => (Finset.univ : Finset (Fin 2048)).fold max (Ideal.ofBits .f32 0xFF800000#32) f)
    (funext fun (k : Fin 2048) => ?_)
  exact (congrArg (val_main_v1 (F := Ideal) x0 x1 x2) (lift_at b i k)).trans (sim_at x0 x1 x2 b i k)

/-- The exponential at `(b, i, j)`. -/
theorem exp_at (b : Fin 8) (i j : Fin 2048) :
    val_main_v8 (F := Ideal) x0 x1 x2 (ix3 b i j) = rowExp (simRow x0 x1 x2 b i) j := by
  rw [val_main_v8_apply, val_main_v7_apply, val_main_v6_apply, val_main_v5_apply]
  have e : idx_main_v5 (idx_main_v6 (ix3 b i j)) = ix2 b i :=
    funext fun a => Fin.ext (by match a with | ⟨0, _⟩ => rfl | ⟨1, _⟩ => rfl)
  rw [e, max_at, sim_at]
  rfl

/-- The score at `(b, i, j)`. -/
theorem score_at (b : Fin 8) (i j : Fin 2048) :
    val_main_v12 (F := Ideal) x0 x1 x2 (ix3 b i j) = score (qRow x1 b i) x2 (srcRows x0 b) j := by
  rw [val_main_v12_apply, val_main_v11_apply, val_main_v10_apply]
  have e : idx_main_v10 (idx_main_v11 (ix3 b i j)) = ix2 b i :=
    funext fun a => Fin.ext (by match a with | ⟨0, _⟩ => rfl | ⟨1, _⟩ => rfl)
  rw [e, val_main_v9_apply, exp_at]
  unfold score softmaxRow
  show Ideal.div _ (Ideal.ofBits .f32 0x00000000#32 + _) = _
  rw [Ideal.ofBits_zero_f32, zero_add]
  refine congrArg (Ideal.div _) (Finset.sum_congr rfl fun k _ => ?_)
  have e9 : idx_main_v9 (ix2 b i) k = ix3 b i k :=
    funext fun a => Fin.ext (by match a with | ⟨0, _⟩ => rfl | ⟨1, _⟩ => rfl | ⟨2, _⟩ => rfl)
  rw [e9, exp_at]

/-- THE REFERENCE'S RESULT is the specification. -/
theorem result_eq : val_main_v13 (F := Ideal) x0 x1 x2 = Attn.out x0 x1 x2 := by
  funext y
  obtain ⟨b, j, d, rfl⟩ : ∃ (b : Fin 8) (j : Fin 2048) (d : Fin 512), y = ix3 b j d := ⟨y 0, y 1, y 2, eq_ix3 y⟩
  rw [val_main_v13_apply]
  unfold Attn.out
  refine Finset.sum_congr rfl fun i _ => ?_
  have el : lidx_main_v13 (ix3 b j d) i = ix3 b i j :=
    funext fun a => Fin.ext (by match a with | ⟨0, _⟩ => rfl | ⟨1, _⟩ => rfl | ⟨2, _⟩ => rfl)
  have er : ridx_main_v13 (ix3 b j d) i = ix3 b i d :=
    funext fun a => Fin.ext (by match a with | ⟨0, _⟩ => rfl | ⟨1, _⟩ => rfl | ⟨2, _⟩ => rfl)
  rw [el, er, score_at]

end Cert.ReferenceIdeal.RefValue

end
-- ==== Proof.lean ====
/-
  Multiplicative attention, kernel against reference, over the extended reals.

  Both programs compute, for a batch `b`, a source row `j` and a feature `d`,

      out b j d = ∑ i, softmax_j (∑ d', (∑ q, query b i q · w q d') · source b j d') · source b i d

  the sum running over the 2048 QUERY rows `i`. The reference takes the three matrix products whole. The kernel walks
  a grid of 8 batches × 16 query tiles of 128 rows: at each point it projects the tile, takes its similarities against
  the batch's whole source block, the row softmax, and adds the product of the scores with the tile's own 128 source
  rows into an accumulator that is zeroed at a batch's first tile and copied to the output block at its last.

  Over the extended reals a change of float format is the identity and a matrix product into a zero accumulator is a
  plain sum, so each stage of the kernel at a point is the reference's stage restricted to the tile's rows (the row
  maximum, the exponentials, their sum and the quotient are spelled the same way on both sides), and the accumulator
  after the sixteenth tile is `0 + ∑ tiles ∑ rows`. Every query row lies in exactly one tile, and addition on the
  extended reals is associative and commutative, so that double sum is the reference's single sum. No cancellation or
  distributivity is used, hence no finiteness: the precondition is never opened.

  The three frames are the generated ones (the reference's is its generated run with the result dropped); the kernel's
  idealization rewrote nothing, so `preserves` is trivial.
-/
import proofs.«164855_j71038759076085_1_alg».proof.Defs
import proofs.«164855_j71038759076085_1_alg».proof.Proof.Gen.Kernel
import proofs.«164855_j71038759076085_1_alg».proof.Proof.Gen.Kernel.Skeleton
import proofs.«164855_j71038759076085_1_alg».proof.Proof.Gen.Kernel.Launch
import proofs.«164855_j71038759076085_1_alg».proof.Proof.Gen.Kernel.Points
import proofs.«164855_j71038759076085_1_alg».proof.Proof.Gen.Kernel.Frame
import proofs.«164855_j71038759076085_1_alg».proof.Proof.Gen.KernelIdeal
import proofs.«164855_j71038759076085_1_alg».proof.Proof.Gen.KernelIdeal.Skeleton
import proofs.«164855_j71038759076085_1_alg».proof.Proof.Gen.KernelIdeal.Launch
import proofs.«164855_j71038759076085_1_alg».proof.Proof.Gen.KernelIdeal.Points
import proofs.«164855_j71038759076085_1_alg».proof.Proof.Gen.KernelIdeal.Frame
import proofs.«164855_j71038759076085_1_alg».proof.Proof.Gen.ReferenceIdeal
import proofs.«164855_j71038759076085_1_alg».proof.Proof.Gen.KernelIdeal.Value
import proofs.«164855_j71038759076085_1_alg».proof.Proof.Gen.ReferenceIdeal.Run
import proofs.«164855_j71038759076085_1_alg».proof.Proof.Gen.ReferenceIdeal.Read
import proofs.«164855_j71038759076085_1_alg».proof.Proof.Gen.Pre_finite_inputs
import proofs.«164855_j71038759076085_1_alg».proof.Proof.KernelValue
import proofs.«164855_j71038759076085_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the one specification of the argument arrays, which agree. -/
theorem algebraic : Cert.algebraic_KernelIdeal_ReferenceIdeal := by
  intro m ρ m' ρ' _ hagree
  refine ⟨fun c => Cert.KernelIdeal.RunValue.G m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
